-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x512 : Shape := ⟨2, ![64, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn {F : FTy → Type} [FloatOps F] (main_arg0 : FVec F S64x512x512 .f32) (main_arg1 : IVec S64x512 32) (main_arg2 : FVec F S64x512x512 .f32) (main_arg3 : IVec S64x512 32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg2
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  main_v8
-- ==== Kernel.lean ====
abbrev S64x512x512 : Shape := ⟨3, ![64, 512, 512]⟩
abbrev S64x512 : Shape := ⟨2, ![64, 512]⟩
abbrev S_ : Shape := ⟨0, ![]⟩
abbrev S64x512x1 : Shape := ⟨3, ![64, 512, 1]⟩
abbrev S64x1x512 : Shape := ⟨3, ![64, 1, 512]⟩
abbrev S1x512x512 : Shape := ⟨3, ![1, 512, 512]⟩
abbrev S1x512x1 : Shape := ⟨3, ![1, 512, 1]⟩
abbrev S1x1x512 : Shape := ⟨3, ![1, 1, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 22
  | .vmem => 12
  | .smem => 0
  | _ => 0

abbrev bufTy : (tb : Table) → Fin (tcTables nBuf tb) → BufTy
  | .hbm, ⟨0, _⟩ => ⟨S64x512x512, .f32⟩
  | .hbm, ⟨1, _⟩ => ⟨S64x512, .i32⟩
  | .hbm, ⟨2, _⟩ => ⟨S64x512x512, .f32⟩
  | .hbm, ⟨3, _⟩ => ⟨S64x512, .i32⟩
  | .hbm, ⟨4, _⟩ => ⟨S_, .i32⟩
  | .hbm, ⟨5, _⟩ => ⟨S64x512, .i32⟩
  | .hbm, ⟨6, _⟩ => ⟨S64x512, .i1⟩
  | .hbm, ⟨7, _⟩ => ⟨S64x512, .f32⟩
  | .hbm, ⟨8, _⟩ => ⟨S_, .f32⟩
  | .hbm, ⟨9, _⟩ => ⟨S64x512, .f32⟩
  | .hbm, ⟨10, _⟩ => ⟨S64x512, .f32⟩
  | .hbm, ⟨11, _⟩ => ⟨S64x512x1, .f32⟩
  | .hbm, ⟨12, _⟩ => ⟨S_, .i32⟩
  | .hbm, ⟨13, _⟩ => ⟨S64x512, .i32⟩
  | .hbm, ⟨14, _⟩ => ⟨S64x512, .i1⟩
  | .hbm, ⟨15, _⟩ => ⟨S64x512, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S64x1x512, .f32⟩
  | .hbm, ⟨20, _⟩ => ⟨S64x512x512, .f32⟩
  | .hbm, ⟨21, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1, .f32⟩
  | .local _ .vmem, ⟨5, _⟩ => ⟨S1x512x1, .f32⟩
  | .local _ .vmem, ⟨6, _⟩ => ⟨S1x1x512, .f32⟩
  | .local _ .vmem, ⟨7, _⟩ => ⟨S1x1x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  bitsLt_bf16_f32 : FTy.bits .bf16 < FTy.bits .f32
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  shapeCasts_S512x512_S1x512x512 : S512x512.ShapeCasts S1x512x512
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x512.size a
  hwx0_3 : ∀ i : grid0.Coords, EltTy.bits .f32 = 32 ∨ (Rect.block (s := S64x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x512x512.size a
  hwx0_4 : ∀ i : grid0.Coords, EltTy.bits .f32 = 32 ∨ (Rect.block (s := S64x512x512) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S64x512x512.size a
  hwx0_5 : ∀ i : grid0.Coords, EltTy.bits .f32 = 32 ∨ (Rect.block (s := S64x512x512) S1x512x512.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x512 : Shape := ⟨2, ![64, 512]⟩
abbrev S_ : Shape := ⟨0, ![]⟩
abbrev S64x1x512 : Shape := ⟨3, ![64, 1, 512]⟩
abbrev S64x512x1 : Shape := ⟨3, ![64, 512, 1]⟩

abbrev nBuf : Space → Nat
  | .hbm => 55
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512, .i32⟩
  | .hbm, ⟨2, _⟩ => ⟨S64x512x512, .f32⟩
  | .hbm, ⟨3, _⟩ => ⟨S64x512, .i32⟩
  | .hbm, ⟨4, _⟩ => ⟨S64x512x512, .f32⟩
  | .hbm, ⟨5, _⟩ => ⟨S_, .i32⟩
  | .hbm, ⟨6, _⟩ => ⟨S64x512, .i32⟩
  | .hbm, ⟨7, _⟩ => ⟨S64x512, .i1⟩
  | .hbm, ⟨8, _⟩ => ⟨S64x512, .f32⟩
  | .hbm, ⟨9, _⟩ => ⟨S64x1x512, .f32⟩
  | .hbm, ⟨10, _⟩ => ⟨S_, .i32⟩
  | .hbm, ⟨11, _⟩ => ⟨S64x512, .i32⟩
  | .hbm, ⟨12, _⟩ => ⟨S64x512, .i1⟩
  | .hbm, ⟨13, _⟩ => ⟨S64x512, .f32⟩
  | .hbm, ⟨14, _⟩ => ⟨S64x512x1, .f32⟩
  | .hbm, ⟨15, _⟩ => ⟨S_, .f32⟩
  | .hbm, ⟨16, _⟩ => ⟨S64x1x512, .f32⟩
  | .hbm, ⟨17, _⟩ => ⟨S64x1x512, .f32⟩
  | .hbm, ⟨18, _⟩ => ⟨S64x512x512, .f32⟩
  | .hbm, ⟨19, _⟩ => ⟨S64x512x512, .f32⟩
  | .hbm, ⟨20, _⟩ => ⟨S_, .f32⟩
  | .hbm, ⟨21, _⟩ => ⟨S64x512x1, .f32⟩
  | .hbm, ⟨22, _⟩ => ⟨S64x512x1, .f32⟩
  | .hbm, ⟨23, _⟩ => ⟨S64x512x512, .f32⟩
  | .hbm, ⟨24, _⟩ => ⟨S64x512x512, .f32⟩
  | .hbm, ⟨25, _⟩ => ⟨S_, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S64x512x1, .f32⟩
  | .hbm, ⟨31, _⟩ => ⟨S64x512x512, .f32⟩
  | .hbm, ⟨32, _⟩ => ⟨S64x512x512, .f32⟩
  | .hbm, ⟨33, _⟩ => ⟨S64x512x512, .f32⟩
  | .hbm, ⟨34, _⟩ => ⟨S_, .f32⟩
  | .hbm, ⟨35, _⟩ => ⟨S64x512, .f32⟩
  | .hbm, ⟨36, _⟩ => ⟨S64x512x1, .f32⟩
  | .hbm, ⟨37, _⟩ => ⟨S64x512x512, .f32⟩
  | .hbm, ⟨38, _⟩ => ⟨S64x512x512, .f32⟩
  | .hbm, ⟨39, _⟩ => ⟨S_, .f32⟩
  | .hbm, ⟨40, _⟩ => ⟨S64x512, .f32⟩
  | .hbm, ⟨41, _⟩ => ⟨S_, .f32⟩
  | .hbm, ⟨42, _⟩ => ⟨S64x512, .f32⟩
  | .hbm, ⟨43, _⟩ => ⟨S64x512, .f32⟩
  | .hbm, ⟨44, _⟩ => ⟨S64x1x512, .f32⟩
  | .hbm, ⟨45, _⟩ => ⟨S64x512x512, .f32⟩
  | .hbm, ⟨46, _⟩ => ⟨S64x512x512, .f32⟩
  | .hbm, ⟨47, _⟩ => ⟨S64x512x512, .f32⟩
  | .hbm, ⟨48, _⟩ => ⟨S_, .f32⟩
  | .hbm, ⟨49, _⟩ => ⟨S64x512, .f32⟩
  | .hbm, ⟨50, _⟩ => ⟨S64x1x512, .f32⟩
  | .hbm, ⟨51, _⟩ => ⟨S64x512x512, .f32⟩
  | .hbm, ⟨52, _⟩ => ⟨S64x512x512, .f32⟩
  | .hbm, ⟨53, _⟩ => ⟨S64x512x512, .f32⟩
  | .hbm, ⟨54, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S64x512_S64x1x512_0_2 : S64x512.BroadcastsInDim S64x1x512 (![0, 2] : Fin 2 → Fin S64x1x512.rank)
  bcast_S64x512_S64x512x1_0_1 : S64x512.BroadcastsInDim S64x512x1 (![0, 1] : Fin 2 → Fin S64x512x1.rank)
  bcast_S_S64x1x512 : S_.BroadcastsInDim S64x1x512 (![] : Fin 0 → Fin S64x1x512.rank)
  bcast_S64x1x512_S64x512x512_0_1_2 : S64x1x512.BroadcastsInDim S64x512x512 (![0, 1, 2] : Fin 3 → Fin S64x512x512.rank)
  bcast_S_S64x512x1 : S_.BroadcastsInDim S64x512x1 (![] : Fin 0 → Fin S64x512x1.rank)
  bcast_S64x512x1_S64x512x512_0_1_2 : S64x512x1.BroadcastsInDim S64x512x512 (![0, 1, 2] : Fin 3 → Fin S64x512x512.rank)
  reducesTo_S64x512x512_S64x512_d2 : S64x512x512.ReducesTo [2] S64x512
  h_S_ : 0 < S_.numel
  reducesTo_S64x512x512_S64x512_d1 : S64x512x512.ReducesTo [1] S64x512
  dot_S64x512x512_S64x512x512_S64x512x512_2_2_1_1_0_0_wf : DotDims.WF S64x512x512 S64x512x512 S64x512x512 [2] [2] [1] [1] [0] [0]
  dot_S64x512x512_S64x512x512_S64x512x512_2_1_1_2_0_0_wf : DotDims.WF S64x512x512 S64x512x512 S64x512x512 [2] [1] [1] [2] [0] [0]
  dot_S64x512x512_S64x512x512_S64x512x512_1_1_2_2_0_0_wf : DotDims.WF S64x512x512 S64x512x512 S64x512x512 [1] [1] [2] [2] [0] [0]

variable [Facts₀]

def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf
def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf
def dot_S64x512x512_S64x512x512_S64x512x512_1_1_2_2_0_0 : DotDims S64x512x512 S64x512x512 S64x512x512 where
  lhsContracting := [1]
  rhsContracting := [1]
  lhsNonContracting := [2]
  rhsNonContracting := [2]
  lhsBatch := [0]
  rhsBatch := [0]
  wf := dot_S64x512x512_S64x512x512_S64x512x512_1_1_2_2_0_0_wf

class Facts : Prop extends Facts₀ where

variable [Facts]
-- ==== Proof.Spec.lean ====
/-
  Bidirectional masked cross-attention of one batch element, on the extended reals.

  For a premise matrix `x` (rows `p`, features `d`), a hypothesis matrix `y` (rows `h`, features `d`), an additive
  mask `a` on premise rows and an additive mask `c` on hypothesis rows:

    dots x y p h            = Σ_d x p d · y h d                          (the similarity)
    soft s j                = exp (s j − M) / Σ_j' exp (s j' − M),   M = max (−∞) (max_j s j)
    attendedPremise  … p d  = Σ_h soft (h' ↦ dots x y p h' + a p) h · y h d
    attendedHypothesis … h d = Σ_p soft (p' ↦ dots x y p' h + c h) p · x p d

  The first normalises each premise row over the hypothesis rows, the second each hypothesis row over the premise
  rows; both are the same function `soft` of a slice of the masked similarity. Nothing here mentions a program.
-/
import Idealize.ShloMosaic.PureOps.Ideal

noncomputable section

open scoped BigOperators

namespace Cert.CrossAttn

open Idealize.ShloMosaic

/-- The value of the word a maximum starts from: −∞. -/
abbrev negInf : EReal := Ideal.ofBits .f32 0xFF800000#32

/-- The value of the mask word, −999999. -/
abbrev maskWeight : EReal := Ideal.ofBits .f32 0xC97423F0#32

/-- Similarity of premise row `p` and hypothesis row `h`: the sum over the features of the products. -/
def dots (x y : Fin 512 → Fin 512 → EReal) (p h : Fin 512) : EReal := ∑ d : Fin 512, x p d * y h d

/-- The maximum a normalisation subtracts: the fold of `max` over the scores, from −∞, and once more against −∞. -/
def top (s : Fin 512 → EReal) : EReal := max negInf ((Finset.univ : Finset (Fin 512)).fold max negInf s)

/-- Scores normalised: each exponentiated below the maximum, over the sum of those exponentials. -/
def soft (s : Fin 512 → EReal) (j : Fin 512) : EReal :=
  Ideal.div (Ideal.exp (s j - top s)) (∑ j' : Fin 512, Ideal.exp (s j' - top s))

/-- Premise row `p` attends over the hypothesis rows: the weights normalise `dots x y p · + a p`. -/
def attendedPremise (x y : Fin 512 → Fin 512 → EReal) (a : Fin 512 → EReal) (p d : Fin 512) : EReal :=
  ∑ h : Fin 512, soft (fun h' => dots x y p h' + a p) h * y h d

/-- Hypothesis row `h` attends over the premise rows: the weights normalise `dots x y · h + c h`. -/
def attendedHypothesis (x y : Fin 512 → Fin 512 → EReal) (c : Fin 512 → EReal) (h d : Fin 512) : EReal :=
  ∑ p : Fin 512, soft (fun p' => dots x y p' h + c h) p * x p d

end Cert.CrossAttn

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.KernelBody.lean ====
/-
  What the kernel body computes from the four blocks it loads, entry by entry, on the extended reals.

  The body sees one batch element: the premise block `v0` and the hypothesis block `v2` (each `[1, 512, 512]`), the
  premise mask column `v4` (`[1, 512, 1]`) and the hypothesis mask row `v6` (`[1, 1, 512]`). Dropping the unit axis,
  its values are, in order: the similarity matrix (a product contracting the feature axis of both blocks), the
  similarity plus the mask column normalised along each row, the similarity plus the mask row normalised along each
  column, and the two attended products. Read at coordinates these are the functions of `Spec.lean`: a change of
  float format is the identity, a lane reduction is a finite sum or a fold of `max`, a product into the zero
  accumulator is a finite sum of products.
-/
import proofs.«123869_j58626303590875_1_alg».proof.Proof.Gen.KernelIdeal.Skeleton
import proofs.«123869_j58626303590875_1_alg».proof.Proof.Spec
import proofs.«123869_j58626303590875_1_alg».proof.Proof.LibKeepdims
import proofs.«123869_j58626303590875_1_alg».proof.Proof.LibIndexReads
import proofs.«123869_j58626303590875_1_alg».proof.Proof.LibColumnBroadcast
import proofs.«123869_j58626303590875_1_alg».proof.Proof.LibColumnReads
import Idealize.ShloMosaic.Lib.ValueLayout
import Idealize.ShloMosaic.Lib.ValueIdx
import Idealize.ShloMosaic.Lib.Pipeline.Value
import Idealize.ShloMosaic.PureOps.Ideal.Laws

set_option synthInstance.maxSize 4096

noncomputable section

open scoped BigOperators

namespace Cert.KernelIdeal.Body

open Cert.KernelIdeal Cert.KernelIdeal.Gen Idealize.ShloMosaic Idealize.ShloMosaic.ValueIdx
open Cert.CrossAttn Cert.ColumnReads Cert.MemAttn.Layout Cert.WeightUpdate.Layout Cert.IndexReads

/-! ## The blocks by coordinates -/

/-- A `[1, 512, 512]` block as a matrix. -/
def mat (v : Vec Ideal S1x512x512 .f32) (p d : Fin 512) : EReal := v (ix3 (0 : Fin 1) p d)
/-- A `[1, 512, 1]` block as a column. -/
def col (v : Vec Ideal S1x512x1 .f32) (p : Fin 512) : EReal := v (ix3 (0 : Fin 1) p (0 : Fin 1))
/-- A `[1, 1, 512]` block as a row. -/
def row (v : Vec Ideal S1x1x512 .f32) (h : Fin 512) : EReal := v (ix3 (0 : Fin 1) (0 : Fin 1) h)

/-- The premise block with its unit axis dropped and its format changed: entry `(p, d)` of the matrix. -/
theorem premise_apply (v0 : Vec Ideal S1x512x512 .f32) (p d : Fin 512) : k0_pay3 v0 (ix2 p d) = mat v0 p d :=
  shapeCast_1ab_ab_apply v0 shapeCasts_S1x512x512_S512x512 p d

/-- The hypothesis block likewise. -/
theorem hypothesis_apply (v2 : Vec Ideal S1x512x512 .f32) (h d : Fin 512) : k0_pay4 v2 (ix2 h d) = mat v2 h d :=
  shapeCast_1ab_ab_apply v2 shapeCasts_S1x512x512_S512x512 h d

/-! ## The similarity: both feature axes contracted -/

section Similarity

local notation "simDims" => dot_S512x512_S512x512_S512x512_1_1_0_0_n_n

theorem sim_lhs_kept (i : S512x512.Idx) (q : (simDims).contr.Idx) : ((simDims).lhsIdx i q 0).val = (i 0).val := by
  unfold DotDims.lhsIdx
  rw [dif_neg (show ¬(0 : Fin S512x512.rank) ∈ (simDims).lhsBatch by decide),
    dif_pos (show (0 : Fin S512x512.rank) ∈ (simDims).lhsNonContracting by decide)]
  rfl

theorem sim_rhs_kept (i : S512x512.Idx) (q : (simDims).contr.Idx) : ((simDims).rhsIdx i q 0).val = (i 1).val := by
  unfold DotDims.rhsIdx
  rw [dif_neg (show ¬(0 : Fin S512x512.rank) ∈ (simDims).rhsBatch by decide),
    dif_pos (show (0 : Fin S512x512.rank) ∈ (simDims).rhsNonContracting by decide)]
  rfl

/-- Entry `(p, h)` of the similarity: premise row `p` against hypothesis row `h`. -/
theorem similarity_apply (v0 v2 : Vec Ideal S1x512x512 .f32) (p h : Fin 512) :
    k0_pay5 v0 v2 (ix2 p h) = dots (mat v0) (mat v2) p h := by
  have hL : ∀ k : Fin 512, (simDims).lhsIdx (ix2 p h) ((contrEquiv1 (simDims) 512 rfl rfl).symm k) = ix2 p k := fun k =>
    funext fun a => Fin.ext (by
      match a with
      | ⟨0, _⟩ => exact sim_lhs_kept _ _
      | ⟨1, _⟩ => exact ((simDims).lhsIdx_val_of_single rfl _ _).trans (contrEquiv1_symm_val (simDims) 512 rfl rfl k))
  have hR : ∀ k : Fin 512, (simDims).rhsIdx (ix2 p h) ((contrEquiv1 (simDims) 512 rfl rfl).symm k) = ix2 h k := fun k =>
    funext fun a => Fin.ext (by
      match a with
      | ⟨0, _⟩ => exact sim_rhs_kept _ _
      | ⟨1, _⟩ => exact ((simDims).rhsIdx_val_of_single rfl _ _).trans (contrEquiv1_symm_val (simDims) 512 rfl rfl k))
  refine (matmul_zero_single (simDims) 512 rfl rfl none (k0_pay3 v0) (k0_pay4 v2) (ix2 p h) _ _ hL hR).trans ?_
  exact Finset.sum_congr rfl fun k _ => by rw [premise_apply, hypothesis_apply]

end Similarity

/-! ## Normalising along the rows, and along the columns -/

/-- The row maxima, kept as a column and spread back along the rows. -/
def rowTops (s : FVec Ideal S512x512 .f32) : FVec Ideal S512x512 .f32 :=
  broadcastTo S512x512 (shapeCast S512x1 (maximumf (broadcast S512 (Scalar.ofBits (F := Ideal) .f32 0xFF800000#32))
    (multiReduction .maximumf [1] S512 s 0xFF800000#32 reduces_S512x512_S512 (.inl rfl) rfl)) shapeCasts_S512_S512x1)
    broadcasts_S512x1_S512x512

/-- The row sums, kept as a column and spread back along the rows. -/
def rowSums (e : FVec Ideal S512x512 .f32) : FVec Ideal S512x512 .f32 :=
  broadcastTo S512x512 (shapeCast S512x1 (multiReduction .add [1] S512 e 0x00000000#32 reduces_S512x512_S512 (.inl rfl) rfl)
    shapeCasts_S512_S512x1) broadcasts_S512x1_S512x512

/-- The column maxima, kept as a row and spread back along the columns. -/
def colTops (s : FVec Ideal S512x512 .f32) : FVec Ideal S512x512 .f32 :=
  broadcastTo S512x512 (shapeCast S1x512 (maximumf (broadcast S512 (Scalar.ofBits (F := Ideal) .f32 0xFF800000#32))
    (multiReduction .maximumf [0] S512 s 0xFF800000#32 reduces_S512x512_S512_2 (.inl rfl) rfl)) shapeCasts_S512_S1x512)
    broadcasts_S1x512_S512x512

/-- The column sums, kept as a row and spread back along the columns. -/
def colSums (e : FVec Ideal S512x512 .f32) : FVec Ideal S512x512 .f32 :=
  broadcastTo S512x512 (shapeCast S1x512 (multiReduction .add [0] S512 e 0x00000000#32 reduces_S512x512_S512_2 (.inl rfl) rfl)
    shapeCasts_S512_S1x512) broadcasts_S1x512_S512x512

theorem rowTops_apply (s : FVec Ideal S512x512 .f32) (p k : Fin 512) :
    rowTops s (ix2 p k) = top (fun j => s (ix2 p j)) := by
  unfold rowTops top
  refine (broadcastTo_a1_ab_apply _ _ p k).trans ((shapeCast_a_a1_apply _ _ p 0).trans ?_)
  exact congrArg (max negInf) (multiReduction_maximumf_row s _ _ _ _ p)

theorem rowSums_apply (e : FVec Ideal S512x512 .f32) (p k : Fin 512) :
    rowSums e (ix2 p k) = ∑ j : Fin 512, e (ix2 p j) := by
  unfold rowSums
  refine (broadcastTo_a1_ab_apply _ _ p k).trans ((shapeCast_a_a1_apply _ _ p 0).trans ?_)
  exact multiReduction_add_row e _ _ _ _ p

theorem colTops_apply (s : FVec Ideal S512x512 .f32) (k c : Fin 512) :
    colTops s (ix2 k c) = top (fun j => s (ix2 j c)) := by
  unfold colTops top
  refine (broadcastTo_1b_ab_apply _ _ k c).trans ((shapeCast_a_1a_apply _ _ 0 c).trans ?_)
  exact congrArg (max negInf) (multiReduction_maximumf_col s _ _ _ _ c)

theorem colSums_apply (e : FVec Ideal S512x512 .f32) (k c : Fin 512) :
    colSums e (ix2 k c) = ∑ j : Fin 512, e (ix2 j c) := by
  unfold colSums
  refine (broadcastTo_1b_ab_apply _ _ k c).trans ((shapeCast_a_1a_apply _ _ 0 c).trans ?_)
  exact multiReduction_add_col e _ _ _ _ c

/-- Every row normalised: exponentials below the row maximum over their row sum. -/
def softRows (s : FVec Ideal S512x512 .f32) : FVec Ideal S512x512 .f32 :=
  divf (exp (subf s (rowTops s))) (rowSums (exp (subf s (rowTops s))))

/-- Every column normalised: exponentials below the column maximum over their column sum. -/
def softCols (s : FVec Ideal S512x512 .f32) : FVec Ideal S512x512 .f32 :=
  divf (exp (subf s (colTops s))) (colSums (exp (subf s (colTops s))))

/-- Entry `(p, h)` of the row-normalised scores is `soft` of row `p`, at `h`. -/
theorem softRows_apply (s : FVec Ideal S512x512 .f32) (p h : Fin 512) :
    softRows s (ix2 p h) = soft (fun j => s (ix2 p j)) h := by
  unfold softRows soft
  rw [divf_apply, rowSums_apply]
  show Ideal.div (Ideal.exp (s (ix2 p h) - rowTops s (ix2 p h)))
    (∑ j : Fin 512, Ideal.exp (s (ix2 p j) - rowTops s (ix2 p j))) = _
  simp only [rowTops_apply]

/-- Entry `(p, h)` of the column-normalised scores is `soft` of column `h`, at `p`. -/
theorem softCols_apply (s : FVec Ideal S512x512 .f32) (p h : Fin 512) :
    softCols s (ix2 p h) = soft (fun j => s (ix2 j h)) p := by
  unfold softCols soft
  rw [divf_apply, colSums_apply]
  show Ideal.div (Ideal.exp (s (ix2 p h) - colTops s (ix2 p h)))
    (∑ j : Fin 512, Ideal.exp (s (ix2 j h) - colTops s (ix2 j h))) = _
  simp only [colTops_apply]

/-! ## The two attention matrices -/

/-- Entry `(p, h)` of the weights with which premise row `p` attends: the similarity of row `p` plus that row's mask,
    normalised over the hypothesis rows. -/
theorem premiseWeights_apply (v0 v2 : Vec Ideal S1x512x512 .f32) (v4 : Vec Ideal S1x512x1 .f32) (p h : Fin 512) :
    k0_pay6 v0 v2 v4 (ix2 p h) = soft (fun j => dots (mat v0) (mat v2) p j + col v4 p) h := by
  show softRows (addf (k0_pay5 v0 v2) (broadcastTo S512x512 (shapeCast S512x1 v4 shapeCasts_S1x512x1_S512x1)
    broadcasts_S512x1_S512x512)) (ix2 p h) = _
  rw [softRows_apply]
  refine congrArg (fun s => soft s h) (funext fun j => ?_)
  rw [addf_apply, similarity_apply, broadcastTo_a1_ab_apply, shapeCast_1a1_a1_apply]
  rfl

/-- Entry `(p, h)` of the weights with which hypothesis row `h` attends: the similarity of column `h` plus that
    column's mask, normalised over the premise rows. -/
theorem hypothesisWeights_apply (v0 v2 : Vec Ideal S1x512x512 .f32) (v6 : Vec Ideal S1x1x512 .f32) (p h : Fin 512) :
    k0_pay7 v0 v2 v6 (ix2 p h) = soft (fun j => dots (mat v0) (mat v2) j h + row v6 h) p := by
  show softCols (addf (k0_pay5 v0 v2) (broadcastTo S512x512 (shapeCast S1x512 v6 shapeCasts_S1x1x512_S1x512)
    broadcasts_S1x512_S512x512)) (ix2 p h) = _
  rw [softCols_apply]
  refine congrArg (fun s => soft s p) (funext fun j => ?_)
  rw [addf_apply, similarity_apply, broadcastTo_1b_ab_apply, shapeCast_11b_1b_apply]
  rfl

/-! ## The two attended products -/

section Attended

local notation "preDims" => dot_S512x512_S512x512_S512x512_1_0_0_1_n_n
local notation "hypDims" => dot_S512x512_S512x512_S512x512_0_0_1_1_n_n

theorem pre_lhs_kept (i : S512x512.Idx) (q : (preDims).contr.Idx) : ((preDims).lhsIdx i q 0).val = (i 0).val := by
  unfold DotDims.lhsIdx
  rw [dif_neg (show ¬(0 : Fin S512x512.rank) ∈ (preDims).lhsBatch by decide),
    dif_pos (show (0 : Fin S512x512.rank) ∈ (preDims).lhsNonContracting by decide)]
  rfl

theorem pre_rhs_kept (i : S512x512.Idx) (q : (preDims).contr.Idx) : ((preDims).rhsIdx i q 1).val = (i 1).val := by
  unfold DotDims.rhsIdx
  rw [dif_neg (show ¬(1 : Fin S512x512.rank) ∈ (preDims).rhsBatch by decide),
    dif_pos (show (1 : Fin S512x512.rank) ∈ (preDims).rhsNonContracting by decide)]
  rfl

theorem hyp_lhs_kept (i : S512x512.Idx) (q : (hypDims).contr.Idx) : ((hypDims).lhsIdx i q 1).val = (i 0).val := by
  unfold DotDims.lhsIdx
  rw [dif_neg (show ¬(1 : Fin S512x512.rank) ∈ (hypDims).lhsBatch by decide),
    dif_pos (show (1 : Fin S512x512.rank) ∈ (hypDims).lhsNonContracting by decide)]
  rfl

theorem hyp_rhs_kept (i : S512x512.Idx) (q : (hypDims).contr.Idx) : ((hypDims).rhsIdx i q 1).val = (i 1).val := by
  unfold DotDims.rhsIdx
  rw [dif_neg (show ¬(1 : Fin S512x512.rank) ∈ (hypDims).rhsBatch by decide),
    dif_pos (show (1 : Fin S512x512.rank) ∈ (hypDims).rhsNonContracting by decide)]
  rfl

/-- What the body stores for the attended premises, at `(u, p, d)`: the weights of premise row `p` against feature
    `d` of the hypothesis rows. -/
theorem attendedPremise_apply (v0 v2 : Vec Ideal S1x512x512 .f32) (v4 : Vec Ideal S1x512x1 .f32) (u : Fin 1) (p d : Fin 512) :
    k0_pay1 (k0_pay4 v2) (k0_pay6 v0 v2 v4) (constant S512x512 .f32 0x00000000#32) (ix3 u p d)
      = attendedPremise (mat v0) (mat v2) (col v4) p d := by
  have hL : ∀ k : Fin 512, (preDims).lhsIdx (ix2 p d) ((contrEquiv1 (preDims) 512 rfl rfl).symm k) = ix2 p k := fun k =>
    funext fun a => Fin.ext (by
      match a with
      | ⟨0, _⟩ => exact pre_lhs_kept _ _
      | ⟨1, _⟩ => exact ((preDims).lhsIdx_val_of_single rfl _ _).trans (contrEquiv1_symm_val (preDims) 512 rfl rfl k))
  have hR : ∀ k : Fin 512, (preDims).rhsIdx (ix2 p d) ((contrEquiv1 (preDims) 512 rfl rfl).symm k) = ix2 k d := fun k =>
    funext fun a => Fin.ext (by
      match a with
      | ⟨0, _⟩ => exact ((preDims).rhsIdx_val_of_single rfl _ _).trans (contrEquiv1_symm_val (preDims) 512 rfl rfl k)
      | ⟨1, _⟩ => exact pre_rhs_kept _ _)
  unfold attendedPremise
  refine (shapeCast_ab_1ab_apply (matmul (preDims) none (k0_pay6 v0 v2 v4) (k0_pay4 v2) (constant (F := Ideal) S512x512 .f32 0x00000000#32))
    shapeCasts_S512x512_S1x512x512 u p d).trans ?_
  refine (matmul_zero_single (preDims) 512 rfl rfl none (k0_pay6 v0 v2 v4) (k0_pay4 v2) (ix2 p d) _ _ hL hR).trans ?_
  exact Finset.sum_congr rfl fun k _ => by rw [premiseWeights_apply, hypothesis_apply]

/-- What the body stores for the attended hypotheses, at `(u, h, d)`: the weights of hypothesis row `h` against feature
    `d` of the premise rows. -/
theorem attendedHypothesis_apply (v0 v2 : Vec Ideal S1x512x512 .f32) (v6 : Vec Ideal S1x1x512 .f32) (u : Fin 1) (h d : Fin 512) :
    k0_pay2 (k0_pay3 v0) (k0_pay7 v0 v2 v6) (ix3 u h d) = attendedHypothesis (mat v0) (mat v2) (row v6) h d := by
  have hL : ∀ k : Fin 512, (hypDims).lhsIdx (ix2 h d) ((contrEquiv1 (hypDims) 512 rfl rfl).symm k) = ix2 k h := fun k =>
    funext fun a => Fin.ext (by
      match a with
      | ⟨0, _⟩ => exact ((hypDims).lhsIdx_val_of_single rfl _ _).trans (contrEquiv1_symm_val (hypDims) 512 rfl rfl k)
      | ⟨1, _⟩ => exact hyp_lhs_kept _ _)
  have hR : ∀ k : Fin 512, (hypDims).rhsIdx (ix2 h d) ((contrEquiv1 (hypDims) 512 rfl rfl).symm k) = ix2 k d := fun k =>
    funext fun a => Fin.ext (by
      match a with
      | ⟨0, _⟩ => exact ((hypDims).rhsIdx_val_of_single rfl _ _).trans (contrEquiv1_symm_val (hypDims) 512 rfl rfl k)
      | ⟨1, _⟩ => exact hyp_rhs_kept _ _)
  unfold attendedHypothesis
  refine (shapeCast_ab_1ab_apply (matmul (hypDims) none (k0_pay7 v0 v2 v6) (k0_pay3 v0) (constant (F := Ideal) S512x512 .f32 0x00000000#32))
    shapeCasts_S512x512_S1x512x512 u h d).trans ?_
  refine (matmul_zero_single (hypDims) 512 rfl rfl none (k0_pay7 v0 v2 v6) (k0_pay3 v0) (ix2 h d) _ _ hL hR).trans ?_
  exact Finset.sum_congr rfl fun k _ => by rw [hypothesisWeights_apply, premise_apply]

end Attended

end Cert.KernelIdeal.Body

end
-- ==== Proof.Results.lean ====
/-
  The two results as whole arrays. Batch element `b` of a `[64, 512, 512]` array is a matrix; the attended premises of
  the batch are, at `(b, p, d)`, `attendedPremise` of the two batch-`b` matrices and of the batch-`b` premise mask at
  `(p, d)`, and the attended hypotheses likewise with the hypothesis mask. The additive mask of a 0/1 integer mask is the
  weight −999999 times the indicator that the mask word is zero.
-/
import proofs.«123869_j58626303590875_1_alg».proof.Proof.Spec
import Idealize.ShloMosaic.Lib.ValueIdx

noncomputable section

namespace Cert.CrossAttn

open Idealize.ShloMosaic Idealize.ShloMosaic.ValueIdx

/-- The shape of a batch of matrices, and of a batch of masks. -/
abbrev Batch3 : Shape := ⟨3, ![64, 512, 512]⟩
abbrev Mask2 : Shape := ⟨2, ![64, 512]⟩

/-- Batch element `b` of an array, as a matrix. -/
def slab (X : Batch3.Idx → EReal) (b : Fin 64) (p d : Fin 512) : EReal := X (ix3 b p d)

/-- The additive mask at `(b, p)`: the mask weight times the indicator that the integer mask's word there is zero. -/
def padOf (M : Mask2.Idx → BitVec 32) (b : Fin 64) (p : Fin 512) : EReal :=
  FloatOps.mulf (F := Ideal) (FloatOps.ofBits .f32 0xC97423F0#32) (FloatOps.uitofp .f32 (IntOp.cmpi .eq (M (ix2 b p)) 0#32))

/-- The attended premises of the whole batch, for additive premise masks `a`. -/
def premiseResult (X Y : Batch3.Idx → EReal) (a : Fin 64 → Fin 512 → EReal) : Batch3.Idx → EReal :=
  fun i => attendedPremise (slab X (i 0)) (slab Y (i 0)) (a (i 0)) (i 1) (i 2)

/-- The attended hypotheses of the whole batch, for additive hypothesis masks `c`. -/
def hypothesisResult (X Y : Batch3.Idx → EReal) (c : Fin 64 → Fin 512 → EReal) : Batch3.Idx → EReal :=
  fun i => attendedHypothesis (slab X (i 0)) (slab Y (i 0)) (c (i 0)) (i 1) (i 2)

theorem premiseResult_apply (X Y : Batch3.Idx → EReal) (a : Fin 64 → Fin 512 → EReal) (b : Fin 64) (p d : Fin 512) :
    premiseResult X Y a (ix3 b p d) = attendedPremise (slab X b) (slab Y b) (a b) p d := rfl

theorem hypothesisResult_apply (X Y : Batch3.Idx → EReal) (c : Fin 64 → Fin 512 → EReal) (b : Fin 64) (h d : Fin 512) :
    hypothesisResult X Y c (ix3 b h d) = attendedHypothesis (slab X b) (slab Y b) (c b) h d := rfl

end Cert.CrossAttn

end
-- ==== Proof.KernelValue.lean ====
/-
  From the kernel's blocks to its two result arrays, on the extended reals.

  The grid has one point per batch element. At point `t` every window's block is batch element `t` of its array (the
  block index is `(t, 0, 0)` for all six windows), so what the body leaves in the two output blocks (`KernelBody.lean`)
  is batch element `t` of `premiseResult` / `hypothesisResult` of the arrays as the region finds them; the 64 blocks
  tile each output array, so after the run each array IS that function. The two mask arrays the region finds were
  written by the host operations before it: at `(b, p, 0)` and `(b, 0, h)` they hold `padOf` of the integer masks.
-/
import proofs.«123869_j58626303590875_1_alg».proof.Proof.Gen.KernelIdeal.Value
import proofs.«123869_j58626303590875_1_alg».proof.Proof.KernelBody
import proofs.«123869_j58626303590875_1_alg».proof.Proof.Results
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.CrossAttn Cert.KernelIdeal.Body

variable (m : (ℓ : Loc nD τ sig) → Buf (Elt Ideal) ℓ) (ρ : Dev nD → PrngReg)

/-! ## Where the blocks sit -/

theorem zero_offsets : (![0, 0, 0] : Fin 3 → Nat) = fun _ => 0 := funext fun a => by fin_cases a <;> rfl

/-- Every window's block index at point `t` is `(t, 0, 0)` (decided over the 64 points). -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The batch element a grid point works on. -/
def batchOf (t : Fin cfg0.N) : Fin 64 := ⟨t.val, by have h : t.val < grid0.N := t.isLt; have hN : grid0.N = 64 := N_0; omega⟩

/-- Window 0's block at `t` is batch element `t` of the premise array. -/
theorem premise_block (c : Dev nD) (t : Fin cfg0.N) (p d : Fin 512) :
    iblk m c 0 t (ix3 (0 : Fin 1) p d) = V m c main_arg0 (ix3 (batchOf t) p d) := by
  obtain ⟨⟨e0, e1, e2⟩, -⟩ := block_index t
  show V m c main_arg0 (((cfg0.win 0).blk t).view.emb (ix3 (0 : Fin 1) p d)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 512 + 1 * d.val = d.val; omega

/-- Window 1's block at `t` is batch element `t` of the hypothesis array. -/
theorem hypothesis_block (c : Dev nD) (t : Fin cfg0.N) (h d : Fin 512) :
    iblk m c 1 t (ix3 (0 : Fin 1) h d) = V m c main_arg2 (ix3 (batchOf t) h d) := by
  obtain ⟨-, ⟨e0, e1, e2⟩, -⟩ := block_index t
  show V m c main_arg2 (((cfg0.win 1).blk t).view.emb (ix3 (0 : Fin 1) h d)) = _
  refine congrArg (V m c main_arg2) (funext fun a => Fin.ext ?_)
  match a with
  | ⟨0, _⟩ => show win0_1.index t (0 : Fin 3) * 1 + 1 * 0 = t.val; omega
  | ⟨1, _⟩ => show win0_1.index t (1 : Fin 3) * 512 + 1 * h.val = h.val; omega
  | ⟨2, _⟩ => show win0_1.index t (2 : Fin 3) * 512 + 1 * d.val = d.val; omega

/-- Window 2's block at `t` is batch element `t` of the premise mask column array. -/
theorem premiseMask_block (c : Dev nD) (t : Fin cfg0.N) (p : Fin 512) :
    iblk m c 2 t (ix3 (0 : Fin 1) p (0 : Fin 1)) = V m c main_v5 (ix3 (batchOf t) p (0 : Fin 1)) := by
  obtain ⟨-, -, ⟨e0, e1, e2⟩, -⟩ := block_index t
  show V m c main_v5 (((cfg0.win 2).blk t).view.emb (ix3 (0 : Fin 1) p (0 : Fin 1))) = _
  refine congrArg (V m c main_v5) (funext fun a => Fin.ext ?_)
  match a with
  | ⟨0, _⟩ => show win0_2.index t (0 : Fin 3) * 1 + 1 * 0 = t.val; omega
  | ⟨1, _⟩ => show win0_2.index t (1 : Fin 3) * 512 + 1 * p.val = p.val; omega
  | ⟨2, _⟩ => show win0_2.index t (2 : Fin 3) * 1 + 1 * 0 = 0; omega

/-- Window 3's block at `t` is batch element `t` of the hypothesis mask row array. -/
theorem hypothesisMask_block (c : Dev nD) (t : Fin cfg0.N) (h : Fin 512) :
    iblk m c 3 t (ix3 (0 : Fin 1) (0 : Fin 1) h) = V m c main_v11 (ix3 (batchOf t) (0 : Fin 1) h) := by
  obtain ⟨-, -, -, ⟨e0, e1, e2⟩, -⟩ := block_index t
  show V m c main_v11 (((cfg0.win 3).blk t).view.emb (ix3 (0 : Fin 1) (0 : Fin 1) h)) = _
  refine congrArg (V m c main_v11) (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 512 + 1 * h.val = h.val; omega

/-- An entry `(u, p, d)` of output window 4's block at `t` sits at `(t, p, d)` of its array. -/
theorem premiseOut_emb (t : Fin cfg0.N) (u : Fin 1) (p d : Fin 512) :
    ((cfg0.win 4).blk t).view.emb (ix3 u p d) = ix3 (batchOf t) p d := by
  obtain ⟨-, -, -, -, ⟨e0, e1, e2⟩, -⟩ := block_index t
  have hu : u.val = 0 := by omega
  funext a; apply Fin.ext
  match a with
  | ⟨0, _⟩ => show win0_4.index t (0 : Fin 3) * 1 + 1 * u.val = t.val; omega
  | ⟨1, _⟩ => show win0_4.index t (1 : Fin 3) * 512 + 1 * p.val = p.val; omega
  | ⟨2, _⟩ => show win0_4.index t (2 : Fin 3) * 512 + 1 * d.val = d.val; omega

/-- An entry `(u, h, d)` of output window 5's block at `t` sits at `(t, h, d)` of its array. -/
theorem hypothesisOut_emb (t : Fin cfg0.N) (u : Fin 1) (h d : Fin 512) :
    ((cfg0.win 5).blk t).view.emb (ix3 u h d) = ix3 (batchOf t) h d := by
  obtain ⟨-, -, -, -, -, ⟨e0, e1, e2⟩⟩ := block_index t
  have hu : u.val = 0 := by omega
  funext a; apply Fin.ext
  match a with
  | ⟨0, _⟩ => show win0_5.index t (0 : Fin 3) * 1 + 1 * u.val = t.val; omega
  | ⟨1, _⟩ => show win0_5.index t (1 : Fin 3) * 512 + 1 * h.val = h.val; omega
  | ⟨2, _⟩ => show win0_5.index t (2 : Fin 3) * 512 + 1 * d.val = d.val; omega

/-! ## What a point writes back -/

/-- The additive premise masks as the region finds them. -/
def foundPremiseMask (c : Dev nD) (b : Fin 64) (p : Fin 512) : EReal := V m c main_v5 (ix3 b p (0 : Fin 1))
/-- The additive hypothesis masks as the region finds them. -/
def foundHypothesisMask (c : Dev nD) (b : Fin 64) (h : Fin 512) : EReal := V m c main_v11 (ix3 b (0 : Fin 1) h)

/-- Point `t` writes back block `t` of the attended premises of the arrays the region finds. -/
theorem premise_flushed (c : Dev nD) (t : Fin cfg0.N) :
    (dats m 0 c).flushed 4 t = ((cfg0.win 4).blk t).view.read (Elt Ideal)
      (premiseResult (V m c main_arg0) (V m c main_arg2) (foundPremiseMask m c)) := by
  rw [Value.flushed4]
  unfold out0_4
  rw [View.canon_unit_zero zero_offsets]
  simp only [View.ld_unit_zero (S := S1x512x512) zero_offsets, View.ld_unit_zero (S := S1x512x1) zero_offsets]
  funext j
  obtain ⟨u, p, d, rfl⟩ : ∃ (u : Fin 1) (p d : Fin 512), j = ix3 u p d := ⟨j 0, j 1, j 2, eq_ix3 j⟩
  show k0_pay1 (k0_pay4 (iblk m c 1 t)) (k0_pay6 (iblk m c 0 t) (iblk m c 1 t) (iblk m c 2 t))
      (constant S512x512 .f32 0x00000000#32) (ix3 u p d)
    = premiseResult (V m c main_arg0) (V m c main_arg2) (foundPremiseMask m c) (((cfg0.win 4).blk t).view.emb (ix3 u p d))
  rw [premiseOut_emb, premiseResult_apply]
  refine (attendedPremise_apply (iblk m c 0 t) (iblk m c 1 t) (iblk m c 2 t) u p d).trans ?_
  have h0 : mat (iblk m c 0 t) = slab (V m c main_arg0) (batchOf t) := funext fun p => funext fun d => premise_block m c t p d
  have h1 : mat (iblk m c 1 t) = slab (V m c main_arg2) (batchOf t) := funext fun h => funext fun d => hypothesis_block m c t h d
  have h2 : col (iblk m c 2 t) = foundPremiseMask m c (batchOf t) := funext fun p => premiseMask_block m c t p
  rw [h0, h1, h2]

/-- Point `t` writes back block `t` of the attended hypotheses of the arrays the region finds. -/
theorem hypothesis_flushed (c : Dev nD) (t : Fin cfg0.N) :
    (dats m 0 c).flushed 5 t = ((cfg0.win 5).blk t).view.read (Elt Ideal)
      (hypothesisResult (V m c main_arg0) (V m c main_arg2) (foundHypothesisMask m c)) := by
  rw [Value.flushed5]
  unfold out0_5
  rw [View.canon_unit_zero zero_offsets]
  simp only [View.ld_unit_zero (S := S1x512x512) zero_offsets, View.ld_unit_zero (S := S1x1x512) zero_offsets]
  funext j
  obtain ⟨u, h, d, rfl⟩ : ∃ (u : Fin 1) (h d : Fin 512), j = ix3 u h d := ⟨j 0, j 1, j 2, eq_ix3 j⟩
  show k0_pay2 (k0_pay3 (iblk m c 0 t)) (k0_pay7 (iblk m c 0 t) (iblk m c 1 t) (iblk m c 3 t)) (ix3 u h d)
    = hypothesisResult (V m c main_arg0) (V m c main_arg2) (foundHypothesisMask m c) (((cfg0.win 5).blk t).view.emb (ix3 u h d))
  rw [hypothesisOut_emb, hypothesisResult_apply]
  refine (attendedHypothesis_apply (iblk m c 0 t) (iblk m c 1 t) (iblk m c 3 t) u h d).trans ?_
  have h0 : mat (iblk m c 0 t) = slab (V m c main_arg0) (batchOf t) := funext fun p => funext fun d => premise_block m c t p d
  have h1 : mat (iblk m c 1 t) = slab (V m c main_arg2) (batchOf t) := funext fun h => funext fun d => hypothesis_block m c t h d
  have h3 : row (iblk m c 3 t) = foundHypothesisMask m c (batchOf t) := funext fun h => hypothesisMask_block m c t h
  rw [h0, h1, h3]

/-! ## The blocks tile the arrays -/

theorem premise_mem_block (t : Fin cfg0.N) (i : S64x512x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v12_0).slice (win0_4.rect t)).set ↔ _
  rw [View.set_slice_whole, Rect.mem_set_unit]
  exact Iff.rfl

theorem hypothesis_mem_block (t : Fin cfg0.N) (i : S64x512x512.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v12_1).slice (win0_5.rect t)).set ↔ _
  rw [View.set_slice_whole, Rect.mem_set_unit]
  exact Iff.rfl

/-- Index `(b, p, d)` of the attended premises is in the block of point `b`. -/
theorem premise_cover (i : S64x512x512.Idx) :
    ∃ t : Fin cfg0.N, (cfg0.win 4).flush t = true ∧ i ∈ ((cfg0.win 4).blk t).view.set := by
  have hN : grid0.N = 64 := N_0
  have hi0 : (i 0).val < 64 := (i 0).isLt
  have hi1 : (i 1).val < 512 := (i 1).isLt
  have hi2 : (i 2).val < 512 := (i 2).isLt
  refine ⟨⟨(i 0).val, by show (i 0).val < grid0.N; omega⟩, flush0_4 _, ?_⟩
  rw [premise_mem_block]
  obtain ⟨-, -, -, -, ⟨e0, e1, e2⟩, -⟩ := block_index ⟨(i 0).val, by show (i 0).val < grid0.N; omega⟩
  have e0' : win0_4.index ⟨(i 0).val, by show (i 0).val < grid0.N; omega⟩ (0 : Fin 3) = (i 0).val := e0
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 512 ≤ (i 1).val ∧ (i 1).val < win0_4.index _ (1 : Fin 3) * 512 + 512; omega
  | ⟨2, _⟩ => show win0_4.index _ (2 : Fin 3) * 512 ≤ (i 2).val ∧ (i 2).val < win0_4.index _ (2 : Fin 3) * 512 + 512; omega

/-- Index `(b, h, d)` of the attended hypotheses is in the block of point `b`. -/
theorem hypothesis_cover (i : S64x512x512.Idx) :
    ∃ t : Fin cfg0.N, (cfg0.win 5).flush t = true ∧ i ∈ ((cfg0.win 5).blk t).view.set := by
  have hN : grid0.N = 64 := N_0
  have hi0 : (i 0).val < 64 := (i 0).isLt
  have hi1 : (i 1).val < 512 := (i 1).isLt
  have hi2 : (i 2).val < 512 := (i 2).isLt
  refine ⟨⟨(i 0).val, by show (i 0).val < grid0.N; omega⟩, flush0_5 _, ?_⟩
  rw [hypothesis_mem_block]
  obtain ⟨-, -, -, -, -, ⟨e0, e1, e2⟩⟩ := block_index ⟨(i 0).val, by show (i 0).val < grid0.N; omega⟩
  have e0' : win0_5.index ⟨(i 0).val, by show (i 0).val < grid0.N; omega⟩ (0 : Fin 3) = (i 0).val := e0
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 512 ≤ (i 1).val ∧ (i 1).val < win0_5.index _ (1 : Fin 3) * 512 + 512; omega
  | ⟨2, _⟩ => show win0_5.index _ (2 : Fin 3) * 512 ≤ (i 2).val ∧ (i 2).val < win0_5.index _ (2 : Fin 3) * 512 + 512; omega

/-! ## The masks the region finds -/

/-- A scalar spread over a `[64, 512]` array reads the scalar everywhere. -/
theorem scalar_spread {α : Type} (x : S_.Idx → α) (j : S64x512.Idx) :
    broadcastInDim S64x512 ![] Gen.bcast_S_S64x512 x j = x ix0 :=
  broadcastInDim_apply _ Gen.bcast_S_S64x512 x j ix0 (fun a => a.elim0)

/-- The host's additive mask of an integer mask, before it is given its unit axis, at `(b, p)`. -/
theorem hostPad_apply (M : S64x512.Idx → BitVec 32) (b : Fin 64) (p : Fin 512) :
    mulf (broadcastInDim S64x512 ![] Gen.bcast_S_S64x512 (constant (F := Ideal) S_ .f32 0xC97423F0#32))
      (uitofp .f32 (cmpi .eq M (broadcastInDim S64x512 ![] Gen.bcast_S_S64x512 (constantI S_ 32 0#32)))) (ix2 b p)
      = padOf M b p := by
  show FloatOps.mulf (F := Ideal) (broadcastInDim S64x512 ![] Gen.bcast_S_S64x512 (constant (F := Ideal) S_ .f32 0xC97423F0#32) (ix2 b p))
    (FloatOps.uitofp .f32 (IntOp.cmpi .eq (M (ix2 b p))
      (broadcastInDim S64x512 ![] Gen.bcast_S_S64x512 (constantI S_ 32 0#32) (ix2 b p)))) = _
  rw [scalar_spread, scalar_spread]
  rfl

/-- The premise mask column array the region finds holds, at `(b, p, 0)`, the additive mask of the integer mask. -/
theorem foundPremiseMask_eq (c : Dev nD) :
    foundPremiseMask m c = padOf (m ((c : Thread nD τ).loc main_arg1)) := by
  have e : (V m c main_v5 : S64x512x1.Idx → EReal)
      = broadcastInDim S64x512x1 ![0, 1] Gen.bcast_S64x512_S64x512x1_0_1
          (mulf (broadcastInDim S64x512 ![] Gen.bcast_S_S64x512 (constant (F := Ideal) S_ .f32 0xC97423F0#32))
            (uitofp .f32 (cmpi .eq (m ((c : Thread nD τ).loc main_arg1))
              (broadcastInDim S64x512 ![] Gen.bcast_S_S64x512 (constantI S_ 32 0#32))))) := by
    dsimp only [Gen.V, Gen.hostOps0]; after_results
  funext b p
  unfold foundPremiseMask
  rw [e]
  refine (broadcastInDim_apply _ Gen.bcast_S64x512_S64x512x1_0_1 _ (ix3 b p (0 : Fin 1)) (ix2 b p) (fun a => match a with
    | ⟨0, _⟩ => by show b.val = if (64 : Nat) = 1 then 0 else b.val; rw [if_neg (by decide)]
    | ⟨1, _⟩ => by show p.val = if (512 : Nat) = 1 then 0 else p.val; rw [if_neg (by decide)])).trans ?_
  exact hostPad_apply _ b p

/-- The hypothesis mask row array the region finds holds, at `(b, 0, h)`, the additive mask of the integer mask. -/
theorem foundHypothesisMask_eq (c : Dev nD) :
    foundHypothesisMask m c = padOf (m ((c : Thread nD τ).loc main_arg3)) := by
  have e : (V m c main_v11 : S64x1x512.Idx → EReal)
      = broadcastInDim S64x1x512 ![0, 2] Gen.bcast_S64x512_S64x1x512_0_2
          (mulf (broadcastInDim S64x512 ![] Gen.bcast_S_S64x512 (constant (F := Ideal) S_ .f32 0xC97423F0#32))
            (uitofp .f32 (cmpi .eq (m ((c : Thread nD τ).loc main_arg3))
              (broadcastInDim S64x512 ![] Gen.bcast_S_S64x512 (constantI S_ 32 0#32))))) := by
    dsimp only [Gen.V, Gen.hostOps0]; after_results
  funext b h
  unfold foundHypothesisMask
  rw [e]
  refine (broadcastInDim_apply _ Gen.bcast_S64x512_S64x1x512_0_2 _ (ix3 b (0 : Fin 1) h) (ix2 b h) (fun a => match a with
    | ⟨0, _⟩ => by show b.val = if (64 : Nat) = 1 then 0 else b.val; rw [if_neg (by decide)]
    | ⟨1, _⟩ => by show h.val = if (512 : Nat) = 1 then 0 else h.val; rw [if_neg (by decide)])).trans ?_
  exact hostPad_apply _ b h

/-! ## The arrays after the run -/

/-- After the run the first result array is the attended premises of the argument arrays. -/
theorem premise_final (c : Dev nD) :
    (dats m 0 c).arrAt 4 cfg0.N = premiseResult (m ((c : Thread nD τ).loc main_arg0)) (m ((c : Thread nD τ).loc main_arg2))
      (padOf (m ((c : Thread nD τ).loc main_arg1))) := by
  rw [← V_main_arg0 m c, ← V_main_arg2 m c, ← foundPremiseMask_eq m c]
  exact (dats m 0 c).arrAt_eq_of_cover 4 _ (fun t _ => premise_flushed m c t) premise_cover

/-- After the run the second result array is the attended hypotheses of the argument arrays. -/
theorem hypothesis_final (c : Dev nD) :
    (dats m 0 c).arrAt 5 cfg0.N = hypothesisResult (m ((c : Thread nD τ).loc main_arg0)) (m ((c : Thread nD τ).loc main_arg2))
      (padOf (m ((c : Thread nD τ).loc main_arg3))) := by
  rw [← V_main_arg0 m c, ← V_main_arg2 m c, ← foundHypothesisMask_eq m c]
  exact (dats m 0 c).arrAt_eq_of_cover 5 _ (fun t _ => hypothesis_flushed m c t) hypothesis_cover

/-- The kernel's run: both result arrays at their functions of the argument arrays, the arguments unchanged. -/
theorem run : θ_run defs (onTc (τ := τ) (main (F := Ideal))) ⟨m, fun _ => 0, ρ⟩ fun r => ∀ c : Dev nD,
      r.2.mem ((c : Thread nD τ).loc main_v12_0) = premiseResult (m ((c : Thread nD τ).loc main_arg0))
          (m ((c : Thread nD τ).loc main_arg2)) (padOf (m ((c : Thread nD τ).loc main_arg1)))
      ∧ r.2.mem ((c : Thread nD τ).loc main_v12_1) = hypothesisResult (m ((c : Thread nD τ).loc main_arg0))
          (m ((c : Thread nD τ).loc main_arg2)) (padOf (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (premise_final m c), (h c).2.1.trans (hypothesis_final m c), (h c).2.2⟩)
    (Value.run_blocks m ρ)

end Cert.KernelIdeal.Whole

end
-- ==== Proof.ReferenceValue.lean ====
/-
  The reference's two results, read operation by operation, are the functions of `Results.lean`.

  The reference forms the batched similarity by one product over the feature axis, adds each additive mask spread over
  the other axis, normalises the masked similarity over the last axis (for the premises) and over the middle axis (for
  the hypotheses) — a maximum from −∞, a subtraction, an exponential, a sum from 0, a quotient — and multiplies by the
  hypothesis and premise arrays. At an index `(b, ·, ·)` every one of these reads batch element `b` only, so each
  result is, per batch element, `attendedPremise` / `attendedHypothesis` of that element's matrices and masks.
-/
import proofs.«123869_j58626303590875_1_alg».proof.Proof.Gen.ReferenceIdeal.Read
import proofs.«123869_j58626303590875_1_alg».proof.Proof.Results
import proofs.«123869_j58626303590875_1_alg».proof.Proof.LibColumnReads
import Idealize.ShloMosaic.Lib.ValueIdx
import Idealize.ShloMosaic.PureOps.Ideal.Laws

noncomputable section

open scoped BigOperators

namespace Cert.ReferenceIdeal.Whole

open Cert.ReferenceIdeal Cert.ReferenceIdeal.Gen Cert.ReferenceIdeal.Read Idealize.ShloMosaic Idealize.ShloMosaic.ValueIdx
open Cert.CrossAttn Cert.ColumnReads

variable (x0 x2 : Batch3.Idx → EReal) (x1 x3 : Mask2.Idx → BitVec 32)

/-! ## Where each operation reads -/

section Indices
variable (b : Fin 64) (p h d k : Fin 512)

theorem sim_lhs : lidx_main_v0 (ix3 b p h) k = ix3 b p k :=
  funext fun a => Fin.ext (by match a with | ⟨0, _⟩ => rfl | ⟨1, _⟩ => rfl | ⟨2, _⟩ => rfl)
theorem sim_rhs : ridx_main_v0 (ix3 b p h) k = ix3 b h k :=
  funext fun a => Fin.ext (by match a with | ⟨0, _⟩ => rfl | ⟨1, _⟩ => rfl | ⟨2, _⟩ => rfl)
theorem pre_lhs : lidx_main_v39 (ix3 b p d) k = ix3 b p k :=
  funext fun a => Fin.ext (by match a with | ⟨0, _⟩ => rfl | ⟨1, _⟩ => rfl | ⟨2, _⟩ => rfl)
theorem pre_rhs : ridx_main_v39 (ix3 b p d) k = ix3 b k d :=
  funext fun a => Fin.ext (by match a with | ⟨0, _⟩ => rfl | ⟨1, _⟩ => rfl | ⟨2, _⟩ => rfl)
theorem hyp_lhs : lidx_main_v40 (ix3 b h d) k = ix3 b k h :=
  funext fun a => Fin.ext (by match a with | ⟨0, _⟩ => rfl | ⟨1, _⟩ => rfl | ⟨2, _⟩ => rfl)
theorem hyp_rhs : ridx_main_v40 (ix3 b h d) k = ix3 b k d :=
  funext fun a => Fin.ext (by match a with | ⟨0, _⟩ => rfl | ⟨1, _⟩ => rfl | ⟨2, _⟩ => rfl)
theorem rowSum_at : idx_main_v24 (ix2 b p) k = ix3 b p k :=
  funext fun a => Fin.ext (by match a with | ⟨0, _⟩ => rfl | ⟨1, _⟩ => rfl | ⟨2, _⟩ => rfl)
theorem colSum_at : idx_main_v35 (ix2 b h) k = ix3 b k h :=
  funext fun a => Fin.ext (by match a with | ⟨0, _⟩ => rfl | ⟨1, _⟩ => rfl | ⟨2, _⟩ => rfl)

/-- A premise-side column spread over the last axis reads `(b, p)`. -/
theorem premise_side (f : S64x512.Idx → EReal) :
    f (idx_main_v20 (idx_main_v21 (ix3 b p h))) = f (ix2 b p) :=
  congrArg f (funext fun a => Fin.ext (by match a with | ⟨0, _⟩ => rfl | ⟨1, _⟩ => rfl))

/-- A hypothesis-side row spread over the middle axis reads `(b, h)`. -/
theorem hypothesis_side (f : S64x512.Idx → EReal) :
    f (idx_main_v31 (idx_main_v32 (ix3 b p h))) = f (ix2 b h) :=
  congrArg f (funext fun a => Fin.ext (by match a with | ⟨0, _⟩ => rfl | ⟨1, _⟩ => rfl))

end Indices

/-! ## The masked similarities -/

/-- The batched similarity at `(b, p, h)`. -/
theorem similarity_at (b : Fin 64) (p h : Fin 512) :
    val_main_v0 (F := Ideal) x0 x2 (ix3 b p h) = dots (slab x0 b) (slab x2 b) p h := by
  rw [val_main_v0_apply]
  exact Finset.sum_congr rfl fun k _ => by rw [sim_lhs, sim_rhs]; rfl

/-- The additive premise mask spread over the hypothesis axis, at `(b, p, h)`. -/
theorem premiseMask_at (b : Fin 64) (p h : Fin 512) :
    val_main_v15 (F := Ideal) x1 (ix3 b p h) = padOf x1 b p := by
  rw [val_main_v15_apply, val_main_v14_apply, val_main_v13_apply, val_main_cst_1_apply, val_main_v8_apply,
    val_main_v7_apply, val_main_v6_apply, val_main_v5_apply, val_main_c_0_apply]
  unfold padOf
  refine congrArg (fun w => FloatOps.mulf (F := Ideal) (FloatOps.ofBits .f32 0xC97423F0#32) (FloatOps.uitofp .f32 (IntOp.cmpi .eq (x1 w) 0#32))) ?_
  exact funext fun a => Fin.ext (by match a with | ⟨0, _⟩ => rfl | ⟨1, _⟩ => rfl)

/-- The additive hypothesis mask spread over the premise axis, at `(b, p, h)`. -/
theorem hypothesisMask_at (b : Fin 64) (p h : Fin 512) :
    val_main_v11 (F := Ideal) x3 (ix3 b p h) = padOf x3 b h := by
  rw [val_main_v11_apply, val_main_v10_apply, val_main_v9_apply, val_main_cst_apply, val_main_v4_apply,
    val_main_v3_apply, val_main_v2_apply, val_main_v1_apply, val_main_c_apply]
  unfold padOf
  refine congrArg (fun w => FloatOps.mulf (F := Ideal) (FloatOps.ofBits .f32 0xC97423F0#32) (FloatOps.uitofp .f32 (IntOp.cmpi .eq (x3 w) 0#32))) ?_
  exact funext fun a => Fin.ext (by match a with | ⟨0, _⟩ => rfl | ⟨1, _⟩ => rfl)

/-- The scores premise row `p` normalises: its similarities plus its mask. -/
def premiseScores (b : Fin 64) (p : Fin 512) : Fin 512 → EReal :=
  fun h => dots (slab x0 b) (slab x2 b) p h + padOf x1 b p

/-- The scores hypothesis row `h` normalises: its similarities plus its mask. -/
def hypothesisScores (b : Fin 64) (h : Fin 512) : Fin 512 → EReal :=
  fun p => dots (slab x0 b) (slab x2 b) p h + padOf x3 b h

theorem premiseScores_at (b : Fin 64) (p h : Fin 512) :
    val_main_v16 (F := Ideal) x0 x1 x2 (ix3 b p h) = premiseScores x0 x2 x1 b p h := by
  rw [val_main_v16_apply, similarity_at, premiseMask_at]; rfl

theorem hypothesisScores_at (b : Fin 64) (p h : Fin 512) :
    val_main_v12 (F := Ideal) x0 x2 x3 (ix3 b p h) = hypothesisScores x0 x2 x3 b h p := by
  rw [val_main_v12_apply, similarity_at, hypothesisMask_at]; rfl

/-! ## The maxima -/

theorem premiseTop_at (b : Fin 64) (p : Fin 512) :
    val_main_v19 (F := Ideal) x0 x1 x2 (ix2 b p) = top (premiseScores x0 x2 x1 b p) := by
  rw [val_main_v19_apply, val_main_v18_apply, val_main_cst_3_apply]
  unfold val_main_v17 top
  refine congrArg (max negInf) ?_
  refine (hostReduce_maximumf_last _ _ reducesTo_S64x512x512_S64x512_d2 (by decide) h_S_ b p).trans ?_
  exact congrArg (fun f => (Finset.univ : Finset (Fin 512)).fold max negInf f) (funext fun k => premiseScores_at x0 x2 x1 b p k)

theorem hypothesisTop_at (b : Fin 64) (h : Fin 512) :
    val_main_v30 (F := Ideal) x0 x2 x3 (ix2 b h) = top (hypothesisScores x0 x2 x3 b h) := by
  rw [val_main_v30_apply, val_main_v29_apply, val_main_cst_6_apply]
  unfold val_main_v28 top
  refine congrArg (max negInf) ?_
  refine (hostReduce_maximumf_mid _ _ reducesTo_S64x512x512_S64x512_d1 (by decide) h_S_ b h).trans ?_
  exact congrArg (fun f => (Finset.univ : Finset (Fin 512)).fold max negInf f) (funext fun k => hypothesisScores_at x0 x2 x3 b k h)

/-! ## The exponentials, their sums, the weights -/

theorem premiseExp_at (b : Fin 64) (p h : Fin 512) :
    val_main_v23 (F := Ideal) x0 x1 x2 (ix3 b p h)
      = Ideal.exp (premiseScores x0 x2 x1 b p h - top (premiseScores x0 x2 x1 b p)) := by
  rw [val_main_v23_apply, val_main_v22_apply, premiseScores_at, val_main_v21_apply, val_main_v20_apply,
    premise_side b p h (val_main_v19 (F := Ideal) x0 x1 x2), premiseTop_at]
  rfl

theorem hypothesisExp_at (b : Fin 64) (p h : Fin 512) :
    val_main_v34 (F := Ideal) x0 x2 x3 (ix3 b p h)
      = Ideal.exp (hypothesisScores x0 x2 x3 b h p - top (hypothesisScores x0 x2 x3 b h)) := by
  rw [val_main_v34_apply, val_main_v33_apply, hypothesisScores_at, val_main_v32_apply, val_main_v31_apply,
    hypothesis_side b p h (val_main_v30 (F := Ideal) x0 x2 x3), hypothesisTop_at]
  rfl

theorem premiseSum_at (b : Fin 64) (p : Fin 512) :
    val_main_v24 (F := Ideal) x0 x1 x2 (ix2 b p)
      = ∑ k : Fin 512, Ideal.exp (premiseScores x0 x2 x1 b p k - top (premiseScores x0 x2 x1 b p)) := by
  rw [val_main_v24_apply, val_main_cst_4_apply]
  show Ideal.ofBits .f32 0x00000000#32 + _ = _
  rw [Ideal.ofBits_zero_f32, zero_add]
  exact Finset.sum_congr rfl fun k _ => by rw [rowSum_at, premiseExp_at]

theorem hypothesisSum_at (b : Fin 64) (h : Fin 512) :
    val_main_v35 (F := Ideal) x0 x2 x3 (ix2 b h)
      = ∑ k : Fin 512, Ideal.exp (hypothesisScores x0 x2 x3 b h k - top (hypothesisScores x0 x2 x3 b h)) := by
  rw [val_main_v35_apply, val_main_cst_7_apply]
  show Ideal.ofBits .f32 0x00000000#32 + _ = _
  rw [Ideal.ofBits_zero_f32, zero_add]
  exact Finset.sum_congr rfl fun k _ => by rw [colSum_at, hypothesisExp_at]

/-- The weights with which premise row `p` of batch element `b` attends. -/
theorem premiseWeights_at (b : Fin 64) (p h : Fin 512) :
    val_main_v27 (F := Ideal) x0 x1 x2 (ix3 b p h) = soft (premiseScores x0 x2 x1 b p) h := by
  have hs : val_main_v26 (F := Ideal) x0 x1 x2 (ix3 b p h) = val_main_v24 (F := Ideal) x0 x1 x2 (ix2 b p) := by
    rw [val_main_v26_apply, val_main_v25_apply]
    exact congrArg (val_main_v24 (F := Ideal) x0 x1 x2)
      (funext fun a => Fin.ext (by match a with | ⟨0, _⟩ => rfl | ⟨1, _⟩ => rfl))
  rw [val_main_v27_apply, hs, premiseExp_at, premiseSum_at]
  rfl

/-- The weights with which hypothesis row `h` of batch element `b` attends. -/
theorem hypothesisWeights_at (b : Fin 64) (p h : Fin 512) :
    val_main_v38 (F := Ideal) x0 x2 x3 (ix3 b p h) = soft (hypothesisScores x0 x2 x3 b h) p := by
  have hs : val_main_v37 (F := Ideal) x0 x2 x3 (ix3 b p h) = val_main_v35 (F := Ideal) x0 x2 x3 (ix2 b h) := by
    rw [val_main_v37_apply, val_main_v36_apply]
    exact congrArg (val_main_v35 (F := Ideal) x0 x2 x3)
      (funext fun a => Fin.ext (by match a with | ⟨0, _⟩ => rfl | ⟨1, _⟩ => rfl))
  rw [val_main_v38_apply, hs, hypothesisExp_at, hypothesisSum_at]
  rfl

/-! ## The two results -/

/-- The reference's first result is the attended premises of its arguments. -/
theorem premise_eq : val_main_v39 (F := Ideal) x0 x1 x2 = premiseResult x0 x2 (padOf x1) := by
  funext i
  obtain ⟨b, p, d, rfl⟩ : ∃ (b : Fin 64) (p d : Fin 512), i = ix3 b p d := ⟨i 0, i 1, i 2, eq_ix3 i⟩
  rw [val_main_v39_apply, premiseResult_apply]
  unfold attendedPremise
  exact Finset.sum_congr rfl fun k _ => by rw [pre_lhs, pre_rhs, premiseWeights_at]; rfl

/-- The reference's second result is the attended hypotheses of its arguments. -/
theorem hypothesis_eq : val_main_v40 (F := Ideal) x0 x2 x3 = hypothesisResult x0 x2 (padOf x3) := by
  funext i
  obtain ⟨b, h, d, rfl⟩ : ∃ (b : Fin 64) (h d : Fin 512), i = ix3 b h d := ⟨i 0, i 1, i 2, eq_ix3 i⟩
  rw [val_main_v40_apply, hypothesisResult_apply]
  unfold attendedHypothesis
  exact Finset.sum_congr rfl fun k _ => by rw [hyp_lhs, hyp_rhs, hypothesisWeights_at]; rfl

end Cert.ReferenceIdeal.Whole

end
-- ==== Proof.lean ====
/-
  The kernel and its reference compute the same bidirectional masked cross-attention, on the extended reals.

  Per batch element, with `x` the premise matrix, `y` the hypothesis matrix, and additive masks that put the weight
  −999999 on the rows whose integer mask word is zero, both programs form the similarity `x · yᵀ`, normalise
  `similarity + premise mask` along each premise row and `similarity + hypothesis mask` along each hypothesis row
  (a maximum from −∞, a subtraction, an exponential, a sum, a quotient), and return the first weights times `y` and the
  transposed second weights times `x` (`Spec.lean`, `Results.lean`). The kernel does this one batch element per grid
  point, in two-dimensional blocks, with its matrix products fed in a narrower float format — the identity on the
  extended reals — (`KernelBody.lean`, `KernelValue.lean`); the reference does it on the whole batch at once with the
  mask multiplied after it is reshaped rather than before (`ReferenceValue.lean`). No algebraic law beyond reading
  each operation at an index joins the two sides: sums are finite sums, maxima folds of `max`, in both programs over
  the same index sets; so the precondition is never opened.

  The three frame claims are the generated frames (the reference's is its generated run with the results dropped); the
  idealisation rewrote no operation, so `preserves` has nothing to state.
-/
import proofs.«123869_j58626303590875_1_alg».proof.Defs
import proofs.«123869_j58626303590875_1_alg».proof.Proof.Gen.Kernel
import proofs.«123869_j58626303590875_1_alg».proof.Proof.Gen.Kernel.Skeleton
import proofs.«123869_j58626303590875_1_alg».proof.Proof.Gen.Kernel.Launch
import proofs.«123869_j58626303590875_1_alg».proof.Proof.Gen.Kernel.Points
import proofs.«123869_j58626303590875_1_alg».proof.Proof.Gen.Kernel.Frame
import proofs.«123869_j58626303590875_1_alg».proof.Proof.Gen.KernelIdeal
import proofs.«123869_j58626303590875_1_alg».proof.Proof.Gen.KernelIdeal.Skeleton
import proofs.«123869_j58626303590875_1_alg».proof.Proof.Gen.KernelIdeal.Launch
import proofs.«123869_j58626303590875_1_alg».proof.Proof.Gen.KernelIdeal.Points
import proofs.«123869_j58626303590875_1_alg».proof.Proof.Gen.KernelIdeal.Frame
import proofs.«123869_j58626303590875_1_alg».proof.Proof.Gen.ReferenceIdeal
import proofs.«123869_j58626303590875_1_alg».proof.Proof.Gen.Pre_finite_inputs
import proofs.«123869_j58626303590875_1_alg».proof.Proof.Gen.KernelIdeal.Value
import proofs.«123869_j58626303590875_1_alg».proof.Proof.Gen.ReferenceIdeal.Run
import proofs.«123869_j58626303590875_1_alg».proof.Proof.Gen.ReferenceIdeal.Read
import proofs.«123869_j58626303590875_1_alg».proof.Proof.KernelValue
import proofs.«123869_j58626303590875_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped: it terminates and leaves its arguments as they were. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealisation rewrote nothing, so there is nothing to preserve. -/
theorem preserves : Cert.preserves_Kernel_KernelIdeal := trivial

/-- From memories that agree on the four arguments, the kernel's two result arrays are the attended premises and
    hypotheses of its arguments (`KernelValue.lean`), and the reference's two results are the same functions of its own
    (`ReferenceValue.lean`). -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1]
    exact (Cert.ReferenceIdeal.Read.val_main_v39_eq _ _ _).trans (Cert.ReferenceIdeal.Whole.premise_eq _ _ _)
  · rw [(hagree c).1, (hagree c).2.2.1, (hagree c).2.2.2]
    exact (Cert.ReferenceIdeal.Read.val_main_v40_eq _ _ _).trans (Cert.ReferenceIdeal.Whole.hypothesis_eq _ _ _)

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
